-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512 : Shape := ⟨3, ![4, 512, 512]⟩
abbrev S4x100x320 : Shape := ⟨3, ![4, 100, 320]⟩
abbrev S512x640 : Shape := ⟨2, ![512, 640]⟩
abbrev S640 : Shape := ⟨1, ![640]⟩
abbrev S320x640 : Shape := ⟨2, ![320, 640]⟩
abbrev S640x512 : Shape := ⟨2, ![640, 512]⟩
abbrev S512 : Shape := ⟨1, ![512]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S4x100x320 : S_.BroadcastsInDim S4x100x320 (![] : Fin 0 → Fin S4x100x320.rank)
  reducesTo_S4x100x320_S_d0_1_2 : S4x100x320.ReducesTo [0, 1, 2] S_
  bcast_S_S512x640 : S_.BroadcastsInDim S512x640 (![] : Fin 0 → Fin S512x640.rank)
  reducesTo_S512x640_S_d0_1 : S512x640.ReducesTo [0, 1] S_
  bcast_S_S640 : S_.BroadcastsInDim S640 (![] : Fin 0 → Fin S640.rank)
  reducesTo_S640_S_d0 : S640.ReducesTo [0] S_
  bcast_S_S320x640 : S_.BroadcastsInDim S320x640 (![] : Fin 0 → Fin S320x640.rank)
  reducesTo_S320x640_S_d0_1 : S320x640.ReducesTo [0, 1] S_
  bcast_S_S640x512 : S_.BroadcastsInDim S640x512 (![] : Fin 0 → Fin S640x512.rank)
  reducesTo_S640x512_S_d0_1 : S640x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S320x640 .f32) (main_arg5 : FVec F S640 .f32) (main_arg6 : FVec F S640x512 .f32) (main_arg7 : FVec F S512 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S320x640 .f32 := Host.absf main_arg4
  let main_cst_6 : FVec F S_ .f32 := constant S_ .f32 0x7F800000#32
  let main_v20 : FVec F S320x640 .f32 := broadcastInDim S320x640 ![] bcast_S_S320x640 main_cst_6
  let main_v21 : IVec S320x640 1 := cmpf .olt main_v19 main_v20
  let main_c_7 : IVec S_ 1 := constantI S_ 1 1#1
  let main_v22 : IVec S_ 1 := (fun x v => Host.reduce IntOp.andi x v reducesTo_S320x640_S_d0_1 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  let main_v29 : FVec F S640x512 .f32 := Host.absf main_arg6
  let main_cst_10 : FVec F S_ .f32 := constant S_ .f32 0x7F800000#32
  let main_v30 : FVec F S640x512 .f32 := broadcastInDim S640x512 ![] bcast_S_S640x512 main_cst_10
  let main_v31 : IVec S640x512 1 := cmpf .olt main_v29 main_v30
  let main_c_11 : IVec S_ 1 := constantI S_ 1 1#1
  let main_v32 : IVec S_ 1 := (fun x v => Host.reduce IntOp.andi x v reducesTo_S640x512_S_d0_1 h_S_) main_v31 main_c_11
  let main_v33 : IVec S_ 1 := andi main_v28 main_v32
  fn_part2 (F := F) main_arg7 main_v33

def fn {F : FTy → Type} [FloatOps F] (main_arg0 : FVec F S4x512x512 .f32) (main_arg1 : FVec F S4x100x320 .f32) (main_arg2 : FVec F S512x640 .f32) (main_arg3 : FVec F S640 .f32) (main_arg4 : FVec F S320x640 .f32) (main_arg5 : FVec F S640 .f32) (main_arg6 : FVec F S640x512 .f32) (main_arg7 : FVec F S512 .f32) : IVec S_ 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  let main_v4 : FVec F S4x100x320 .f32 := Host.absf main_arg1
  let main_cst_0 : FVec F S_ .f32 := constant S_ .f32 0x7F800000#32
  let main_v5 : FVec F S4x100x320 .f32 := broadcastInDim S4x100x320 ![] bcast_S_S4x100x320 main_cst_0
  let main_v6 : IVec S4x100x320 1 := cmpf .olt main_v4 main_v5
  let main_c_1 : IVec S_ 1 := constantI S_ 1 1#1
  let main_v7 : IVec S_ 1 := (fun x v => Host.reduce IntOp.andi x v reducesTo_S4x100x320_S_d0_1_2 h_S_) main_v6 main_c_1
  let main_v8 : IVec S_ 1 := andi main_v3 main_v7
  let main_v9 : FVec F S512x640 .f32 := Host.absf main_arg2
  let main_cst_2 : FVec F S_ .f32 := constant S_ .f32 0x7F800000#32
  let main_v10 : FVec F S512x640 .f32 := broadcastInDim S512x640 ![] bcast_S_S512x640 main_cst_2
  let main_v11 : IVec S512x640 1 := cmpf .olt main_v9 main_v10
  let main_c_3 : IVec S_ 1 := constantI S_ 1 1#1
  let main_v12 : IVec S_ 1 := (fun x v => Host.reduce IntOp.andi x v reducesTo_S512x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_arg6 main_arg7 main_v13 main_v16
-- ==== Kernel.lean ====
abbrev S4x512x512 : Shape := ⟨3, ![4, 512, 512]⟩
abbrev S4x100x320 : Shape := ⟨3, ![4, 100, 320]⟩
abbrev S512x640 : Shape := ⟨2, ![512, 640]⟩
abbrev S640 : Shape := ⟨1, ![640]⟩
abbrev S320x640 : Shape := ⟨2, ![320, 640]⟩
abbrev S640x512 : Shape := ⟨2, ![640, 512]⟩
abbrev S512 : Shape := ⟨1, ![512]⟩
abbrev S_ : Shape := ⟨0, ![]⟩
abbrev S4x104x320 : Shape := ⟨3, ![4, 104, 320]⟩
abbrev S1x640 : Shape := ⟨2, ![1, 640]⟩
abbrev S1x512 : Shape := ⟨2, ![1, 512]⟩
abbrev S4x512x100x512 : Shape := ⟨4, ![4, 512, 100, 512]⟩
abbrev S1x32x512 : Shape := ⟨3, ![1, 32, 512]⟩
abbrev S1x104x320 : Shape := ⟨3, ![1, 104, 320]⟩
abbrev S1x32x100x512 : Shape := ⟨4, ![1, 32, 100, 512]⟩
abbrev S32x512 : Shape := ⟨2, ![32, 512]⟩
abbrev S104x320 : Shape := ⟨2, ![104, 320]⟩
abbrev S3328x512 : Shape := ⟨2, ![3328, 512]⟩
abbrev S512x128 : Shape := ⟨2, ![512, 128]⟩
abbrev S1x128 : Shape := ⟨2, ![1, 128]⟩
abbrev S320x128 : Shape := ⟨2, ![320, 128]⟩
abbrev S128x512 : Shape := ⟨2, ![128, 512]⟩
abbrev S32x128 : Shape := ⟨2, ![32, 128]⟩
abbrev S104x128 : Shape := ⟨2, ![104, 128]⟩
abbrev S32x1x128 : Shape := ⟨3, ![32, 1, 128]⟩
abbrev S1x104x128 : Shape := ⟨3, ![1, 104, 128]⟩
abbrev S32x104x128 : Shape := ⟨3, ![32, 104, 128]⟩
abbrev S3328x128 : Shape := ⟨2, ![3328, 128]⟩
abbrev S32x104x512 : Shape := ⟨3, ![32, 104, 512]⟩
abbrev S1x1x512 : Shape := ⟨3, ![1, 1, 512]⟩
abbrev S32x100x512 : Shape := ⟨3, ![32, 100, 512]⟩

abbrev nBuf : Space → Nat
  | .hbm => 15
  | .vmem => 12
  | .smem => 0
  | _ => 0

abbrev bufTy : (tb : Table) → Fin (tcTables nBuf tb) → BufTy
  | .hbm, ⟨0, _⟩ => ⟨S4x512x512, .f32⟩
  | .hbm, ⟨1, _⟩ => ⟨S4x100x320, .f32⟩
  | .hbm, ⟨2, _⟩ => ⟨S512x640, .f32⟩
  | .hbm, ⟨3, _⟩ => ⟨S640, .f32⟩
  | .hbm, ⟨4, _⟩ => ⟨S320x640, .f32⟩
  | .hbm, ⟨5, _⟩ => ⟨S640, .f32⟩
  | .hbm, ⟨6, _⟩ => ⟨S640x512, .f32⟩
  | .hbm, ⟨7, _⟩ => ⟨S512, .f32⟩
  | .hbm, ⟨8, _⟩ => ⟨S_, .i32⟩
  | .hbm, ⟨9, _⟩ => ⟨S_, .f32⟩
  | .hbm, ⟨10, _⟩ => ⟨S4x104x320, .f32⟩
  | .hbm, ⟨11, _⟩ => ⟨S1x640, .f32⟩
  | .hbm, ⟨12, _⟩ => ⟨S1x640, .f32⟩
  | .hbm, ⟨13, _⟩ => ⟨S1x512, .f32⟩
  | .hbm, ⟨14, _⟩ => ⟨S4x512x100x512, .f32⟩
  | .local _ .vmem, ⟨0, _⟩ => ⟨S1x32x512, .f32⟩
  | .local _ .vmem, ⟨1, _⟩ => ⟨S1x32x512, .f32⟩
  | .local _ .vmem, ⟨2, _⟩ => ⟨S1x104x320, .f32⟩
  | .local _ .vmem, ⟨3, _⟩ => ⟨S1x104x320, .f32⟩
  | .local _ .vmem, ⟨4, _⟩ => ⟨S512x640, .f32⟩
  | .local _ .vmem, ⟨5, _⟩ => ⟨S1x640, .f32⟩
  | .local _ .vmem, ⟨6, _⟩ => ⟨S320x640, .f32⟩
  | .local _ .vmem, ⟨7, _⟩ => ⟨S1x640, .f32⟩
  | .local _ .vmem, ⟨8, _⟩ => ⟨S640x512, .f32⟩
  | .local _ .vmem, ⟨9, _⟩ => ⟨S1x512, .f32⟩
  | .local _ .vmem, ⟨10, _⟩ => ⟨S1x32x100x512, .f32⟩
  | .local _ .vmem, ⟨11, _⟩ => ⟨S1x32x100x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x104x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S320x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S640x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x32x100x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  pads_S4x100x320_S4x104x320_000_040_000 : S4x100x320.Pads (![0, 0, 0] : Fin 3 → Nat) ![0, 4, 0] ![0, 0, 0] S4x104x320
  h_S_ : 0 < S_.numel
  shapeCasts_S640_S1x640 : S640.ShapeCasts S1x640
  shapeCasts_S512_S1x512 : S512.ShapeCasts S1x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  bitsLt_bf16_f32 : FTy.bits .bf16 < FTy.bits .f32
  inb_S1x104x320_S1x104x320_0_0_0 : ∀ a, (![0, 0, 0] : Fin 3 → Nat) a + S1x104x320.size a ≤ S1x104x320.size a
  h_S1x104x320 : 0 < S1x104x320.numel
  shapeCasts_S1x104x320_S104x320 : S1x104x320.ShapeCasts S104x320
  inb_S512x640_S512x128_0_0 : ∀ a, (![0, 0] : Fin 2 → Nat) a + S512x128.size a ≤ S512x640.size a
  h_S512x128 : 0 < S512x128.numel
  inb_S1x640_S1x128_0_0 : ∀ a, (![0, 0] : Fin 2 → Nat) a + S1x128.size a ≤ S1x640.size a
  h_S1x128 : 0 < S1x128.numel
  shapeCasts_S1x128_S1x128 : S1x128.ShapeCasts S1x128
  inb_S320x640_S320x128_0_0 : ∀ a, (![0, 0] : Fin 2 → Nat) a + S320x128.size a ≤ S320x640.size a
  h_S320x128 : 0 < S320x128.numel
  inb_S640x512_S128x512_0_0 : ∀ a, (![0, 0] : Fin 2 → Nat) a + S128x512.size a ≤ S640x512.size a
  h_S128x512 : 0 < S128x512.numel
  broadcasts_S1x128_S32x128 : S1x128.Broadcasts S32x128
  broadcasts_S1x128_S104x128 : S1x128.Broadcasts S104x128
  shapeCasts_S32x128_S32x1x128 : S32x128.ShapeCasts S32x1x128
  shapeCasts_S104x128_S1x104x128 : S104x128.ShapeCasts S1x104x128
  broadcasts_S32x1x128_S32x104x128 : S32x1x128.Broadcasts S32x104x128
  broadcasts_S1x104x128_S32x104x128 : S1x104x128.Broadcasts S32x104x128
  shapeCasts_S32x104x128_S3328x128 : S32x104x128.ShapeCasts S3328x128
  inb_S512x640_S512x128_0_128 : ∀ a, (![0, 128] : Fin 2 → Nat) a + S512x128.size a ≤ S512x640.size a
  inb_S1x640_S1x128_0_128 : ∀ a, (![0, 128] : Fin 2 → Nat) a + S1x128.size a ≤ S1x640.size a
  inb_S320x640_S320x128_0_128 : ∀ a, (![0, 128] : Fin 2 → Nat) a + S320x128.size a ≤ S320x640.size a
  inb_S640x512_S128x512_128_0 : ∀ a, (![128, 0] : Fin 2 → Nat) a + S128x512.size a ≤ S640x512.size a
  inb_S512x640_S512x128_0_256 : ∀ a, (![0, 256] : Fin 2 → Nat) a + S512x128.size a ≤ S512x640.size a
  inb_S1x640_S1x128_0_256 : ∀ a, (![0, 256] : Fin 2 → Nat) a + S1x128.size a ≤ S1x640.size a
  inb_S320x640_S320x128_0_256 : ∀ a, (![0, 256] : Fin 2 → Nat) a + S320x128.size a ≤ S320x640.size a
  inb_S640x512_S128x512_256_0 : ∀ a, (![256, 0] : Fin 2 → Nat) a + S128x512.size a ≤ S640x512.size a
  inb_S512x640_S512x128_0_384 : ∀ a, (![0, 384] : Fin 2 → Nat) a + S512x128.size a ≤ S512x640.size a
  inb_S1x640_S1x128_0_384 : ∀ a, (![0, 384] : Fin 2 → Nat) a + S1x128.size a ≤ S1x640.size a
  inb_S320x640_S320x128_0_384 : ∀ a, (![0, 384] : Fin 2 → Nat) a + S320x128.size a ≤ S320x640.size a
  inb_S640x512_S128x512_384_0 : ∀ a, (![384, 0] : Fin 2 → Nat) a + S128x512.size a ≤ S640x512.size a
  inb_S512x640_S512x128_0_512 : ∀ a, (![0, 512] : Fin 2 → Nat) a + S512x128.size a ≤ S512x640.size a
  inb_S1x640_S1x128_0_512 : ∀ a, (![0, 512] : Fin 2 → Nat) a + S1x128.size a ≤ S1x640.size a
  inb_S320x640_S320x128_0_512 : ∀ a, (![0, 512] : Fin 2 → Nat) a + S320x128.size a ≤ S320x640.size a
  inb_S640x512_S128x512_512_0 : ∀ a, (![512, 0] : Fin 2 → Nat) a + S128x512.size a ≤ S640x512.size a
  shapeCasts_S3328x512_S32x104x512 : S3328x512.ShapeCasts S32x104x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  slices_S32x104x512_o0_0_0_S32x100x512 : S32x104x512.Slices ![0, 0, 0] S32x100x512
  broadcasts_S1x1x512_S32x100x512 : S1x1x512.Broadcasts S32x100x512
  inb_S1x32x100x512_S1x32x100x512_0_0_0_0 : ∀ a, (![0, 0, 0, 0] : Fin 4 → Nat) a + S1x32x100x512.size a ≤ S1x32x100x512.size a
  h_S1x32x100x512 : 0 < S1x32x100x512.numel
  shapeCasts_S1x32x100x512_S32x100x512 : S1x32x100x512.ShapeCasts S32x100x512
  shapeCasts_S32x100x512_S1x32x100x512 : S32x100x512.ShapeCasts S1x32x100x512
  dot_S32x512_S512x128_S32x128_1_0_0_1_n_n_wf : DotDims.WF S32x512 S512x128 S32x128 [1] [0] [0] [1] [] []
  dot_S104x320_S320x128_S104x128_1_0_0_1_n_n_wf : DotDims.WF S104x320 S320x128 S104x128 [1] [0] [0] [1] [] []
  dot_S3328x128_S128x512_S3328x512_1_0_0_1_n_n_wf : DotDims.WF S3328x128 S128x512 S3328x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x512x512.size a
  hwx0_0 : ∀ i : grid0.Coords, EltTy.bits .f32 = 32 ∨ (Rect.block (s := S4x512x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x104x320.size a ≤ S4x104x320.size a
  hwx0_1 : ∀ i : grid0.Coords, EltTy.bits .f32 = 32 ∨ (Rect.block (s := S4x104x320) S1x104x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .f32 = 32 ∨ (Rect.block (s := S512x640) S512x640.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x640.size a ≤ S1x640.size a
  hwx0_3 : ∀ i : grid0.Coords, EltTy.bits .f32 = 32 ∨ (Rect.block (s := S1x640) S1x640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S320x640.size a ≤ S320x640.size a
  hwx0_4 : ∀ i : grid0.Coords, EltTy.bits .f32 = 32 ∨ (Rect.block (s := S320x640) S320x640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x640.size a ≤ S1x640.size a
  hwx0_5 : ∀ i : grid0.Coords, EltTy.bits .f32 = 32 ∨ (Rect.block (s := S1x640) S1x640.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S640x512.size a ≤ S640x512.size a
  hwx0_6 : ∀ i : grid0.Coords, EltTy.bits .f32 = 32 ∨ (Rect.block (s := S640x512) S640x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x100x512.size a ≤ S4x512x100x512.size a
  hwx0_8 : ∀ i : grid0.Coords, EltTy.bits .f32 = 32 ∨ (Rect.block (s := S4x512x100x512) S1x32x100x512.size (cc0_transform_8 i) (hinb0_8 i)).WholeWords (EltTy.packing .f32)

variable [Facts₀]

def dot_S32x512_S512x128_S32x128_1_0_0_1_n_n : DotDims S32x512 S512x128 S32x128 where
  lhsContracting := [1]
  rhsContracting := [0]
  lhsNonContracting := [0]
  rhsNonContracting := [1]
  lhsBatch := []
  rhsBatch := []
  wf := dot_S32x512_S512x128_S32x128_1_0_0_1_n_n_wf
def dot_S104x320_S320x128_S104x128_1_0_0_1_n_n : DotDims S104x320 S320x128 S104x128 where
  lhsContracting := [1]
  rhsContracting := [0]
  lhsNonContracting := [0]
  rhsNonContracting := [1]
  lhsBatch := []
  rhsBatch := []
  wf := dot_S104x320_S320x128_S104x128_1_0_0_1_n_n_wf
def dot_S3328x128_S128x512_S3328x512_1_0_0_1_n_n : DotDims S3328x128 S128x512 S3328x512 where
  lhsContracting := [1]
  rhsContracting := [0]
  lhsNonContracting := [0]
  rhsNonContracting := [1]
  lhsBatch := []
  rhsBatch := []
  wf := dot_S3328x128_S128x512_S3328x512_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x104x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S320x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S640x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x32x100x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x512x512 : Shape := ⟨3, ![4, 512, 512]⟩
abbrev S4x100x320 : Shape := ⟨3, ![4, 100, 320]⟩
abbrev S512x640 : Shape := ⟨2, ![512, 640]⟩
abbrev S640 : Shape := ⟨1, ![640]⟩
abbrev S320x640 : Shape := ⟨2, ![320, 640]⟩
abbrev S640x512 : Shape := ⟨2, ![640, 512]⟩
abbrev S512 : Shape := ⟨1, ![512]⟩
abbrev S4x512x640 : Shape := ⟨3, ![4, 512, 640]⟩
abbrev S1x1x640 : Shape := ⟨3, ![1, 1, 640]⟩
abbrev S4x100x640 : Shape := ⟨3, ![4, 100, 640]⟩
abbrev S4x512x1x640 : Shape := ⟨4, ![4, 512, 1, 640]⟩
abbrev S4x1x100x640 : Shape := ⟨4, ![4, 1, 100, 640]⟩
abbrev S4x512x100x640 : Shape := ⟨4, ![4, 512, 100, 640]⟩
abbrev S4x512x100x512 : Shape := ⟨4, ![4, 512, 100, 512]⟩
abbrev S1x1x1x512 : Shape := ⟨4, ![1, 1, 1, 512]⟩

abbrev nBuf : Space → Nat
  | .hbm => 26
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x100x320, .f32⟩
  | .hbm, ⟨2, _⟩ => ⟨S512x640, .f32⟩
  | .hbm, ⟨3, _⟩ => ⟨S640, .f32⟩
  | .hbm, ⟨4, _⟩ => ⟨S320x640, .f32⟩
  | .hbm, ⟨5, _⟩ => ⟨S640, .f32⟩
  | .hbm, ⟨6, _⟩ => ⟨S640x512, .f32⟩
  | .hbm, ⟨7, _⟩ => ⟨S512, .f32⟩
  | .hbm, ⟨8, _⟩ => ⟨S4x512x640, .f32⟩
  | .hbm, ⟨9, _⟩ => ⟨S1x1x640, .f32⟩
  | .hbm, ⟨10, _⟩ => ⟨S4x512x640, .f32⟩
  | .hbm, ⟨11, _⟩ => ⟨S4x512x640, .f32⟩
  | .hbm, ⟨12, _⟩ => ⟨S4x100x640, .f32⟩
  | .hbm, ⟨13, _⟩ => ⟨S1x1x640, .f32⟩
  | .hbm, ⟨14, _⟩ => ⟨S4x100x640, .f32⟩
  | .hbm, ⟨15, _⟩ => ⟨S4x100x640, .f32⟩
  | .hbm, ⟨16, _⟩ => ⟨S4x512x1x640, .f32⟩
  | .hbm, ⟨17, _⟩ => ⟨S4x1x100x640, .f32⟩
  | .hbm, ⟨18, _⟩ => ⟨S4x512x100x640, .f32⟩
  | .hbm, ⟨19, _⟩ => ⟨S4x512x100x640, .f32⟩
  | .hbm, ⟨20, _⟩ => ⟨S4x512x100x640, .f32⟩
  | .hbm, ⟨21, _⟩ => ⟨S4x512x100x640, .f32⟩
  | .hbm, ⟨22, _⟩ => ⟨S4x512x100x512, .f32⟩
  | .hbm, ⟨23, _⟩ => ⟨S1x1x1x512, .f32⟩
  | .hbm, ⟨24, _⟩ => ⟨S4x512x100x512, .f32⟩
  | .hbm, ⟨25, _⟩ => ⟨S4x512x100x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S640_S1x1x640_2 : S640.BroadcastsInDim S1x1x640 (![2] : Fin 1 → Fin S1x1x640.rank)
  bcast_S1x1x640_S4x512x640_0_1_2 : S1x1x640.BroadcastsInDim S4x512x640 (![0, 1, 2] : Fin 3 → Fin S4x512x640.rank)
  bcast_S1x1x640_S4x100x640_0_1_2 : S1x1x640.BroadcastsInDim S4x100x640 (![0, 1, 2] : Fin 3 → Fin S4x100x640.rank)
  bcast_S4x512x640_S4x512x1x640_0_1_3 : S4x512x640.BroadcastsInDim S4x512x1x640 (![0, 1, 3] : Fin 3 → Fin S4x512x1x640.rank)
  bcast_S4x100x640_S4x1x100x640_0_2_3 : S4x100x640.BroadcastsInDim S4x1x100x640 (![0, 2, 3] : Fin 3 → Fin S4x1x100x640.rank)
  bcast_S4x512x1x640_S4x512x100x640_0_1_2_3 : S4x512x1x640.BroadcastsInDim S4x512x100x640 (![0, 1, 2, 3] : Fin 4 → Fin S4x512x100x640.rank)
  bcast_S4x1x100x640_S4x512x100x640_0_1_2_3 : S4x1x100x640.BroadcastsInDim S4x512x100x640 (![0, 1, 2, 3] : Fin 4 → Fin S4x512x100x640.rank)
  bcast_S512_S1x1x1x512_3 : S512.BroadcastsInDim S1x1x1x512 (![3] : Fin 1 → Fin S1x1x1x512.rank)
  bcast_S1x1x1x512_S4x512x100x512_0_1_2_3 : S1x1x1x512.BroadcastsInDim S4x512x100x512 (![0, 1, 2, 3] : Fin 4 → Fin S4x512x100x512.rank)
  dot_S4x512x512_S512x640_S4x512x640_2_0_01_1_n_n_wf : DotDims.WF S4x512x512 S512x640 S4x512x640 [2] [0] [0, 1] [1] [] []
  dot_S4x100x320_S320x640_S4x100x640_2_0_01_1_n_n_wf : DotDims.WF S4x100x320 S320x640 S4x100x640 [2] [0] [0, 1] [1] [] []
  dot_S4x512x100x640_S640x512_S4x512x100x512_3_0_012_1_n_n_wf : DotDims.WF S4x512x100x640 S640x512 S4x512x100x512 [3] [0] [0, 1, 2] [1] [] []

variable [Facts₀]

def dot_S4x512x512_S512x640_S4x512x640_2_0_01_1_n_n : DotDims S4x512x512 S512x640 S4x512x640 where
  lhsContracting := [2]
  rhsContracting := [0]
  lhsNonContracting := [0, 1]
  rhsNonContracting := [1]
  lhsBatch := []
  rhsBatch := []
  wf := dot_S4x512x512_S512x640_S4x512x640_2_0_01_1_n_n_wf
def dot_S4x100x320_S320x640_S4x100x640_2_0_01_1_n_n : DotDims S4x100x320 S320x640 S4x100x640 where
  lhsContracting := [2]
  rhsContracting := [0]
  lhsNonContracting := [0, 1]
  rhsNonContracting := [1]
  lhsBatch := []
  rhsBatch := []
  wf := dot_S4x100x320_S320x640_S4x100x640_2_0_01_1_n_n_wf
def dot_S4x512x100x640_S640x512_S4x512x100x512_3_0_012_1_n_n : DotDims S4x512x100x640 S640x512 S4x512x100x512 where
  lhsContracting := [3]
  rhsContracting := [0]
  lhsNonContracting := [0, 1, 2]
  rhsNonContracting := [1]
  lhsBatch := []
  rhsBatch := []
  wf := dot_S4x512x100x640_S640x512_S4x512x100x512_3_0_012_1_n_n_wf

class Facts : Prop extends Facts₀ where

variable [Facts]
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.ChunkOps.lean ====
/-
  The kernel body's arithmetic, one chunk of 128 hidden units at a time, read at an index at the exact values.

  Each of the five chunks repeats one pattern on a tile of 32 audio frames and 104 (padded) text positions:
    * `projA`  : the audio tile times a 512×128 column chunk of Wa, plus the bias row          → [32, 128]
    * `projT`  : the text tile times a 320×128 column chunk of Wt, plus the bias row            → [104, 128]
    * `jointMat`: tanh of the two projections added across (frame, position), laid out as 3328 = 32·104 rows, times a
                  128×512 row chunk of Wj                                                       → [3328, 512]
  and `epilogue` drops the four padded positions of each frame and adds the class bias.
  Read at an index these are plain finite sums of products: row `p·104 + u` of `jointMat` is frame `p`, position `u`.
-/
import proofs.«147776_j48988396978795_2_alg».proof.Proof.Gen.KernelIdeal.Skeleton
import proofs.«147776_j48988396978795_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.Hand

open Cert.KernelIdeal Cert.KernelIdeal.Gen Idealize.ShloMosaic Idealize.ShloMosaic.ValueIdx

/-! ## The pattern, at any float instance -/

section Pattern
variable {F : FTy → Type} [FloatOps F]

/-- The audio tile against one column chunk of Wa, plus that chunk of the bias. -/
def projA (a : FVec F S32x512 .bf16) (wa : FVec F S512x128 .bf16) (ba : FVec F S1x128 .f32) : FVec F S32x128 .f32 :=
  addf (matmul dot_S32x512_S512x128_S32x128_1_0_0_1_n_n none a wa (constant S32x128 .f32 0x00000000#32))
    (broadcastTo S32x128 ba broadcasts_S1x128_S32x128)

/-- The text tile against one column chunk of Wt, plus that chunk of the bias. -/
def projT (x : FVec F S104x320 .bf16) (wt : FVec F S320x128 .bf16) (bt : FVec F S1x128 .f32) : FVec F S104x128 .f32 :=
  addf (matmul dot_S104x320_S320x128_S104x128_1_0_0_1_n_n none x wt (constant S104x128 .f32 0x00000000#32))
    (broadcastTo S104x128 bt broadcasts_S1x128_S104x128)

/-- tanh of the two projections added across (frame, position), as 3328 rows, against one row chunk of Wj. -/
def jointMat (pa : FVec F S32x128 .f32) (pt : FVec F S104x128 .f32) (wj : FVec F S128x512 .bf16) : FVec F S3328x512 .f32 :=
  matmul dot_S3328x128_S128x512_S3328x512_1_0_0_1_n_n none
    (truncf .bf16 (shapeCast S3328x128 (tanh (addf
        (broadcastTo S32x104x128 (shapeCast S32x1x128 pa shapeCasts_S32x128_S32x1x128) broadcasts_S32x1x128_S32x104x128)
        (broadcastTo S32x104x128 (shapeCast S1x104x128 pt shapeCasts_S104x128_S1x104x128) broadcasts_S1x104x128_S32x104x128)))
      shapeCasts_S32x104x128_S3328x128) bitsLt_bf16_f32)
    wj (constant S3328x512 .f32 0x00000000#32)

/-- The accumulated rows regrouped by frame, the padded positions dropped, the class bias added. -/
def epilogue (acc : FVec F S3328x512 .f32) (bj : Vec F S1x512 .f32) : FVec F S1x32x100x512 .f32 :=
  shapeCast S1x32x100x512
    (addf (extractStridedSlice S32x100x512 ![0, 0, 0] (shapeCast S32x104x512 acc shapeCasts_S3328x512_S32x104x512) slices_S32x104x512_o0_0_0_S32x100x512)
      (broadcastTo S32x100x512 (shapeCast S1x1x512 (shapeCast S1x512 bj shapeCasts_S1x512_S1x512) shapeCasts_S1x512_S1x1x512) broadcasts_S1x1x512_S32x100x512))
    shapeCasts_S32x100x512_S1x32x100x512

end Pattern

/-! ## The three products' dimension numbers are those of a plain matrix product -/

theorem dotA_plain : dot_S32x512_S512x128_S32x128_1_0_0_1_n_n = DotDims.plain 32 512 128 := rfl
theorem dotT_plain : dot_S104x320_S320x128_S104x128_1_0_0_1_n_n = DotDims.plain 104 320 128 := rfl
theorem dotJ_plain : dot_S3328x128_S128x512_S3328x512_1_0_0_1_n_n = DotDims.plain 3328 128 512 := rfl

/-! ## Layout steps read at coordinates -/

section Layout
variable {α : Type}

/-- [32,128] viewed as [32,1,128]. -/
theorem castA_apply (x : S32x128.Idx → α) (p : Fin 32) (z : Fin 1) (q : Fin 128) :
    shapeCast S32x1x128 x shapeCasts_S32x128_S32x1x128 (ix3 p z q) = x (ix2 p q) := by
  refine shapeCast_apply x _ _ _ ?_
  rw [Shape.rowMajor_val_two, Shape.rowMajor_val_three]
  show p.val * 128 + q.val = (p.val * 1 + z.val) * 128 + q.val
  have := z.isLt; omega

/-- [104,128] viewed as [1,104,128]. -/
theorem castT_apply (x : S104x128.Idx → α) (z : Fin 1) (u : Fin 104) (q : Fin 128) :
    shapeCast S1x104x128 x shapeCasts_S104x128_S1x104x128 (ix3 z u q) = x (ix2 u q) := by
  refine shapeCast_apply x _ _ _ ?_
  rw [Shape.rowMajor_val_two, Shape.rowMajor_val_three]
  show u.val * 128 + q.val = (z.val * 104 + u.val) * 128 + q.val
  have := z.isLt; omega

/-- [32,1,128] repeated along the positions. -/
theorem bcastA_apply (y : S32x1x128.Idx → α) (p : Fin 32) (u : Fin 104) (q : Fin 128) :
    broadcastTo S32x104x128 y broadcasts_S32x1x128_S32x104x128 (ix3 p u q) = y (ix3 p (0 : Fin 1) q) := by
  refine broadcastTo_apply y _ _ _ fun ax => ?_
  match ax with
  | ⟨0, _⟩ => show p.val = if (32 : Nat) = 1 then 0 else p.val; rw [if_neg (by decide)]
  | ⟨1, _⟩ => show 0 = if (1 : Nat) = 1 then 0 else u.val; rw [if_pos rfl]
  | ⟨2, _⟩ => show q.val = if (128 : Nat) = 1 then 0 else q.val; rw [if_neg (by decide)]

/-- [1,104,128] repeated along the frames. -/
theorem bcastT_apply (y : S1x104x128.Idx → α) (p : Fin 32) (u : Fin 104) (q : Fin 128) :
    broadcastTo S32x104x128 y broadcasts_S1x104x128_S32x104x128 (ix3 p u q) = y (ix3 (0 : Fin 1) u q) := by
  refine broadcastTo_apply y _ _ _ fun ax => ?_
  match ax with
  | ⟨0, _⟩ => show 0 = if (1 : Nat) = 1 then 0 else p.val; rw [if_pos rfl]
  | ⟨1, _⟩ => show u.val = if (104 : Nat) = 1 then 0 else u.val; rw [if_neg (by decide)]
  | ⟨2, _⟩ => show q.val = if (128 : Nat) = 1 then 0 else q.val; rw [if_neg (by decide)]

/-- [32,104,128] viewed as 3328 rows: row `p·104 + u` is (frame p, position u). -/
theorem rows_apply (y : S32x104x128.Idx → α) (p : Fin 32) (u : Fin 104) (q : Fin 128) (r : Fin 3328)
    (hr : r.val = p.val * 104 + u.val) :
    shapeCast S3328x128 y shapeCasts_S32x104x128_S3328x128 (ix2 r q) = y (ix3 p u q) := by
  refine shapeCast_apply y _ _ _ ?_
  rw [Shape.rowMajor_val_two, Shape.rowMajor_val_three]
  show (p.val * 104 + u.val) * 128 + q.val = r.val * 128 + q.val
  rw [hr]

/-- 3328 rows of 512 viewed as [32,104,512]. -/
theorem frames_apply (y : S3328x512.Idx → α) (p : Fin 32) (u : Fin 104) (v : Fin 512) (r : Fin 3328)
    (hr : r.val = p.val * 104 + u.val) :
    shapeCast S32x104x512 y shapeCasts_S3328x512_S32x104x512 (ix3 p u v) = y (ix2 r v) := by
  refine shapeCast_apply y _ _ _ ?_
  rw [Shape.rowMajor_val_two, Shape.rowMajor_val_three]
  show r.val * 512 + v.val = (p.val * 104 + u.val) * 512 + v.val
  rw [hr]

/-- The first 100 positions of each frame. -/
theorem keep100_apply (y : S32x104x512.Idx → α) (p : Fin 32) (u : Fin 100) (v : Fin 512) (u' : Fin 104) (hu : u'.val = u.val) :
    extractStridedSlice S32x100x512 ![0, 0, 0] y slices_S32x104x512_o0_0_0_S32x100x512 (ix3 p u v) = y (ix3 p u' v) := by
  refine extractStridedSlice_apply _ y _ _ _ fun ax => ?_
  match ax with
  | ⟨0, _⟩ => exact (Nat.zero_add _).symm
  | ⟨1, _⟩ => show u'.val = 0 + u.val; omega
  | ⟨2, _⟩ => exact (Nat.zero_add _).symm

/-- [32,100,512] viewed as [1,32,100,512]. -/
theorem block_apply (y : S32x100x512.Idx → α) (z : Fin 1) (p : Fin 32) (u : Fin 100) (v : Fin 512) :
    shapeCast S1x32x100x512 y shapeCasts_S32x100x512_S1x32x100x512 (ix4 z p u v) = y (ix3 p u v) := by
  refine shapeCast_apply y _ _ _ ?_
  rw [Shape.rowMajor_val_three, Shape.rowMajor_val_four]
  show (p.val * 100 + u.val) * 512 + v.val = ((z.val * 32 + p.val) * 100 + u.val) * 512 + v.val
  have := z.isLt; omega

/-- The class-bias row [1,512] viewed as [1,1,512] and repeated over (frame, position). -/
theorem biasJ_apply (bj : S1x512.Idx → α) (p : Fin 32) (u : Fin 100) (v : Fin 512) :
    broadcastTo S32x100x512 (shapeCast S1x1x512 (shapeCast S1x512 bj shapeCasts_S1x512_S1x512) shapeCasts_S1x512_S1x1x512)
      broadcasts_S1x1x512_S32x100x512 (ix3 p u v) = bj (ix2 (0 : Fin 1) v) := by
  rw [shapeCast_self]
  refine (broadcastTo_apply _ _ _ (ix3 (0 : Fin 1) (0 : Fin 1) v) fun ax => ?_).trans ?_
  · match ax with
    | ⟨0, _⟩ => show 0 = if (1 : Nat) = 1 then 0 else p.val; rw [if_pos rfl]
    | ⟨1, _⟩ => show 0 = if (1 : Nat) = 1 then 0 else u.val; rw [if_pos rfl]
    | ⟨2, _⟩ => show v.val = if (512 : Nat) = 1 then 0 else v.val; rw [if_neg (by decide)]
  · refine shapeCast_apply bj _ _ _ ?_
    rw [Shape.rowMajor_val_two, Shape.rowMajor_val_three]
    rfl

end Layout

/-! ## The pattern at the exact values -/

/-- The audio projection at (frame p, unit q). -/
theorem projA_apply (a : FVec Ideal S32x512 .bf16) (wa : FVec Ideal S512x128 .bf16) (ba : FVec Ideal S1x128 .f32)
    (p : Fin 32) (q : Fin 128) :
    projA a wa ba (ix2 p q) = (∑ k : Fin 512, a (ix2 p k) * wa (ix2 k q)) + ba (ix2 (0 : Fin 1) q) := by
  unfold projA
  rw [addf_apply, dotA_plain, broadcastTo_1b_ab_apply]
  exact congrArg (· + ba (ix2 (0 : Fin 1) q)) (Cert.LibPlainDot.matmul_zero_plain 32 512 128 none a wa (ix2 p q))

/-- The text projection at (position u, unit q). -/
theorem projT_apply (x : FVec Ideal S104x320 .bf16) (wt : FVec Ideal S320x128 .bf16) (bt : FVec Ideal S1x128 .f32)
    (u : Fin 104) (q : Fin 128) :
    projT x wt bt (ix2 u q) = (∑ k : Fin 320, x (ix2 u k) * wt (ix2 k q)) + bt (ix2 (0 : Fin 1) q) := by
  unfold projT
  rw [addf_apply, dotT_plain, broadcastTo_1b_ab_apply]
  exact congrArg (· + bt (ix2 (0 : Fin 1) q)) (Cert.LibPlainDot.matmul_zero_plain 104 320 128 none x wt (ix2 u q))

/-- Row `p·104 + u` of the chunk's product, at class v: the chunk's hidden units against its rows of Wj. -/
theorem jointMat_apply (pa : FVec Ideal S32x128 .f32) (pt : FVec Ideal S104x128 .f32) (wj : FVec Ideal S128x512 .bf16)
    (p : Fin 32) (u : Fin 104) (v : Fin 512) (r : Fin 3328) (hr : r.val = p.val * 104 + u.val) :
    jointMat pa pt wj (ix2 r v) = ∑ h : Fin 128, Ideal.tanh (pa (ix2 p h) + pt (ix2 u h)) * wj (ix2 h v) := by
  unfold jointMat
  rw [dotJ_plain]
  refine (Cert.LibPlainDot.matmul_zero_plain 3328 128 512 none _ wj (ix2 r v)).trans ?_
  refine Finset.sum_congr rfl fun h _ => ?_
  refine congrArg (· * wj (ix2 h v)) ?_
  rw [truncf_apply]
  refine (rows_apply _ p u h r hr).trans ?_
  show Ideal.tanh (_ + _) = _
  rw [bcastA_apply, bcastT_apply, castA_apply, castT_apply]

/-- The stored block at (frame p, position u < 100, class v): the accumulated row plus the class bias. -/
theorem epilogue_apply (acc : FVec Ideal S3328x512 .f32) (bj : Vec Ideal S1x512 .f32)
    (z : Fin 1) (p : Fin 32) (u : Fin 100) (v : Fin 512) (r : Fin 3328) (hr : r.val = p.val * 104 + u.val) :
    epilogue acc bj (ix4 z p u v) = acc (ix2 r v) + bj (ix2 (0 : Fin 1) v) := by
  unfold epilogue
  rw [block_apply, addf_apply, biasJ_apply,
    keep100_apply _ p u v ⟨u.val, by have := u.isLt; omega⟩ rfl,
    frames_apply acc p ⟨u.val, by have := u.isLt; omega⟩ v r hr]

end Cert.KernelIdeal.Hand

end
-- ==== Proof.LibSumBlocks.lean ====
/-
  Finite sums over index sets, rearranged; every statement holds in any commutative additive monoid.

  * `sum_blocks`: a sum over `m * n` consecutive positions is the sum over `m` blocks of the sums over the `n`
    positions inside each block (position `t * n + r` is position `r` of block `t`).
  * `sum_idx1`: a sum over the index set of a rank-1 shape `[n]` is the sum over its one coordinate.
  * `sum_idxMid`: a sum over the index set of a shape `[1, n, 1]` is the sum over its middle coordinate.
-/
import Idealize.ShloMosaic.Lib.ValueIdx

open scoped BigOperators

namespace Cert.Lib.SumBlocks

open Idealize.ShloMosaic Idealize.ShloMosaic.ValueIdx

/-- A sum over `N = m * n` positions is the sum over `m` blocks of `n` consecutive positions each: `g t r` names
    position `r` of block `t`, which is position `t * n + r` of the whole. Only commutativity and associativity of
    the addition are used. -/
theorem sum_blocks {M : Type*} [AddCommMonoid M] (m n N : ℕ) (hN : N = m * n) (f : Fin N → M)
    (g : Fin m → Fin n → Fin N) (hg : ∀ t r, (g t r).val = t.val * n + r.val) :
    ∑ i : Fin N, f i = ∑ t : Fin m, ∑ r : Fin n, f (g t r) := by
  subst hN
  rw [← Equiv.sum_comp finProdFinEquiv f, Fintype.sum_prod_type]
  refine Finset.sum_congr rfl fun t _ => Finset.sum_congr rfl fun r _ => congrArg f (Fin.ext ?_)
  rw [hg, finProdFinEquiv_apply_val]
  show r.val + n * t.val = t.val * n + r.val
  rw [Nat.mul_comm, Nat.add_comm]

/-- The index set of a rank-1 shape is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The index set of a shape `[1, n, 1]` is the range of its middle coordinate: the two outer coordinates can only
    be `0` … -/
def idxEquivMid {n : Nat} : (⟨3, ![1, n, 1]⟩ : Shape).Idx ≃ Fin n where
  toFun i := i 1
  invFun a := ix3 (0 : Fin 1) a (0 : Fin 1)
  left_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idxMid {M : Type*} [AddCommMonoid M] {n : Nat} (f : (⟨3, ![1, n, 1]⟩ : Shape).Idx → M) :
    ∑ i, f i = ∑ a : Fin n, f (ix3 (0 : Fin 1) a (0 : Fin 1)) := by
  rw [← Equiv.sum_comp (idxEquivMid (n := n)).symm f]
  rfl

end Cert.Lib.SumBlocks
-- ==== Proof.Spec.lean ====
/-
  The joint network's logits as ONE function of the eight argument arrays, index by index, over the extended reals.

  For batch b, audio frame t, text position u and class v:

      hidden(b,t,u,h) = tanh( (Σ_k A[b,t,k]·Wa[k,h] + ba[h]) + (Σ_k X[b,u,k]·Wt[k,h] + bt[h]) )      h < 640
      logits(b,t,u,v) = Σ_h hidden(b,t,u,h)·Wj[h,v] + bj[v]

  The 640 hidden units may be summed in five consecutive chunks of 128, added one after the other onto zero: addition
  of extended reals is commutative and associative, so the regrouping holds with no finiteness assumption.
-/
import Idealize.ShloMosaic.PureOps.Ideal
import Idealize.ShloMosaic.Lib.ValueIdx
import proofs.«147776_j48988396978795_2_alg».proof.Proof.LibSumBlocks

open scoped BigOperators

noncomputable section

namespace Cert.JointNet

open Idealize.ShloMosaic Idealize.ShloMosaic.ValueIdx

/-- Hidden unit `h` of the joint layer for audio frame `(b, t)` and text position `(b, u)`: the tanh of the sum of the two
    affine projections. -/
def hidden (A : (⟨3, ![4, 512, 512]⟩ : Shape).Idx → EReal) (X : (⟨3, ![4, 100, 320]⟩ : Shape).Idx → EReal)
    (Wa : (⟨2, ![512, 640]⟩ : Shape).Idx → EReal) (ba : (⟨1, ![640]⟩ : Shape).Idx → EReal)
    (Wt : (⟨2, ![320, 640]⟩ : Shape).Idx → EReal) (bt : (⟨1, ![640]⟩ : Shape).Idx → EReal)
    (b : Fin 4) (t : Fin 512) (u : Fin 100) (h : Fin 640) : EReal :=
  Ideal.tanh (((∑ k : Fin 512, A (ix3 b t k) * Wa (ix2 k h)) + ba (ix1 h))
    + ((∑ k : Fin 320, X (ix3 b u k) * Wt (ix2 k h)) + bt (ix1 h)))

/-- The logits: the hidden units against the class weights, plus the class bias. -/
def logits (A : (⟨3, ![4, 512, 512]⟩ : Shape).Idx → EReal) (X : (⟨3, ![4, 100, 320]⟩ : Shape).Idx → EReal)
    (Wa : (⟨2, ![512, 640]⟩ : Shape).Idx → EReal) (ba : (⟨1, ![640]⟩ : Shape).Idx → EReal)
    (Wt : (⟨2, ![320, 640]⟩ : Shape).Idx → EReal) (bt : (⟨1, ![640]⟩ : Shape).Idx → EReal)
    (Wj : (⟨2, ![640, 512]⟩ : Shape).Idx → EReal) (bj : (⟨1, ![512]⟩ : Shape).Idx → EReal) :
    (⟨4, ![4, 512, 100, 512]⟩ : Shape).Idx → EReal := fun i =>
  (∑ h : Fin 640, hidden A X Wa ba Wt bt (i 0) (i 1) (i 2) h * Wj (ix2 h (i 3))) + bj (ix1 (i 3))

/-- Hidden unit `r` of chunk `c` is unit `128·c + r`. -/
def unitOf (c : Fin 5) (r : Fin 128) : Fin 640 :=
  ⟨c.val * 128 + r.val, by have := c.isLt; have := r.isLt; omega⟩

/-- A sum over the 640 hidden units is the five chunk sums added in order onto zero. -/
theorem sum_hidden_chunks {M : Type*} [AddCommMonoid M] (f : Fin 640 → M) :
    ∑ h : Fin 640, f h
      = ((((0 + ∑ r : Fin 128, f (unitOf 0 r)) + ∑ r : Fin 128, f (unitOf 1 r)) + ∑ r : Fin 128, f (unitOf 2 r))
          + ∑ r : Fin 128, f (unitOf 3 r)) + ∑ r : Fin 128, f (unitOf 4 r) := by
  rw [Cert.Lib.SumBlocks.sum_blocks 5 128 640 rfl f unitOf (fun _ _ => rfl), Fin.sum_univ_five, zero_add]

end Cert.JointNet

end
-- ==== Proof.Payload.lean ====
/-
  What the kernel body stores, as a function of the eight blocks it is given, read at a block index.

  The body's one store is `epilogue` of the five chunk products added one after the other onto zero; chunk `c` loads
  columns `128·c … 128·c + 127` of Wa, ba, Wt, bt and rows `128·c … 128·c + 127` of Wj. At block index (frame p,
  position u < 100, class v), with the blocks' entries written x0 … x7,

      stored(p,u,v) = Σ_{g < 640} tanh( (Σ_k x0[p,k]·x2[k,g] + x3[g]) + (Σ_k x1[u,k]·x4[k,g] + x5[g]) ) · x6[g,v]  +  x7[v]

  — the five chunk sums are the 640-term sum regrouped (commutativity and associativity of the addition only).
-/
import proofs.«147776_j48988396978795_2_alg».proof.Proof.Gen.KernelIdeal.Frame
import proofs.«147776_j48988396978795_2_alg».proof.Proof.ChunkOps
import proofs.«147776_j48988396978795_2_alg».proof.Proof.Spec

open scoped BigOperators

noncomputable section

namespace Cert.KernelIdeal.Hand

open Cert.KernelIdeal Cert.KernelIdeal.Gen Idealize.ShloMosaic Idealize.ShloMosaic.ValueIdx
open Cert.JointNet (unitOf sum_hidden_chunks)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-! ## The store, as the pattern applied five times -/

section Body
variable {F : FTy → Type} [FloatOps F]

/-- One chunk's product from the (cast) tiles and the chunk's five loaded pieces. -/
def chunkOf (a : FVec F S32x512 .bf16) (x : FVec F S104x320 .bf16) (wa : Vec F S512x128 .f32) (ba : Vec F S1x128 .f32)
    (wt : Vec F S320x128 .f32) (bt : Vec F S1x128 .f32) (wj : Vec F S128x512 .f32) : FVec F S3328x512 .f32 :=
  jointMat (projA a (truncf .bf16 wa bitsLt_bf16_f32) (shapeCast S1x128 ba shapeCasts_S1x128_S1x128))
    (projT x (truncf .bf16 wt bitsLt_bf16_f32) (shapeCast S1x128 bt shapeCasts_S1x128_S1x128))
    (truncf .bf16 wj bitsLt_bf16_f32)

/-- What the body leaves in the output block: the five chunk products added in order onto zero, regrouped by frame,
    cut to 100 positions, the class bias added. -/
theorem out_eq (x0 : Vec F S1x32x512 .f32) (x1 : Vec F S1x104x320 .f32) (x2 : Vec F S512x640 .f32) (x3 : Vec F S1x640 .f32)
    (x4 : Vec F S320x640 .f32) (x5 : Vec F S1x640 .f32) (x6 : Vec F S640x512 .f32) (x7 : Vec F S1x512 .f32) :
    out0_8 x0 x1 x2 x3 x4 x5 x6 x7 =
      epilogue (addf (addf (addf (addf (addf (broadcast S3328x512 (Scalar.ofBits .f32 0x00000000#32))
        (chunkOf (k0_pay2 (View.ld x0 r0_0)) (k0_pay3 (View.ld x1 r0_1)) (View.ld x2 r0_2) (View.ld x3 r0_3) (View.ld x4 r0_4) (View.ld x5 r0_3) (View.ld x6 r0_5)))
        (chunkOf (k0_pay2 (View.ld x0 r0_0)) (k0_pay3 (View.ld x1 r0_1)) (View.ld x2 r0_6) (View.ld x3 r0_7) (View.ld x4 r0_8) (View.ld x5 r0_7) (View.ld x6 r0_9)))
        (chunkOf (k0_pay2 (View.ld x0 r0_0)) (k0_pay3 (View.ld x1 r0_1)) (View.ld x2 r0_10) (View.ld x3 r0_11) (View.ld x4 r0_12) (View.ld x5 r0_11) (View.ld x6 r0_13)))
        (chunkOf (k0_pay2 (View.ld x0 r0_0)) (k0_pay3 (View.ld x1 r0_1)) (View.ld x2 r0_14) (View.ld x3 r0_15) (View.ld x4 r0_16) (View.ld x5 r0_15) (View.ld x6 r0_17)))
        (chunkOf (k0_pay2 (View.ld x0 r0_0)) (k0_pay3 (View.ld x1 r0_1)) (View.ld x2 r0_18) (View.ld x3 r0_19) (View.ld x4 r0_20) (View.ld x5 r0_19) (View.ld x6 r0_21)))
        (View.ld x7 r0_22) := by
  unfold out0_8
  rw [View.canon_unit_zero zeros4]
  rfl

end Body

/-! ## Read at a block index, at the exact values -/

/-- The term hidden unit `g` contributes at (frame p, position u, class v), from the blocks' entries. -/
def tileTerm (x0 : S1x32x512.Idx → EReal) (x1 : S1x104x320.Idx → EReal) (x2 : S512x640.Idx → EReal) (x3 : S1x640.Idx → EReal)
    (x4 : S320x640.Idx → EReal) (x5 : S1x640.Idx → EReal) (x6 : S640x512.Idx → EReal)
    (p : Fin 32) (u : Fin 104) (v : Fin 512) (g : Fin 640) : EReal :=
  Ideal.tanh (((∑ k : Fin 512, x0 (ix3 (0 : Fin 1) p k) * x2 (ix2 k g)) + x3 (ix2 (0 : Fin 1) g))
    + ((∑ k : Fin 320, x1 (ix3 (0 : Fin 1) u k) * x4 (ix2 k g)) + x5 (ix2 (0 : Fin 1) g))) * x6 (ix2 g v)

/-- The audio tile, cast and narrowed, at (frame p, feature k). -/
theorem audio_apply (x0 : Vec Ideal S1x32x512 .f32) (p : Fin 32) (k : Fin 512) :
    k0_pay2 (View.ld x0 r0_0) (ix2 p k) = x0 (ix3 (0 : Fin 1) p k) := by
  unfold k0_pay2
  rw [View.ld_unit_zero (S := S1x32x512) zeros3, truncf_apply]
  refine shapeCast_apply x0 _ _ _ ?_
  rw [Shape.rowMajor_val_two, Shape.rowMajor_val_three]
  show (0 * 32 + p.val) * 512 + k.val = p.val * 512 + k.val
  omega

/-- The text tile, cast and narrowed, at (position u, feature k). -/
theorem text_apply (x1 : Vec Ideal S1x104x320 .f32) (u : Fin 104) (k : Fin 320) :
    k0_pay3 (View.ld x1 r0_1) (ix2 u k) = x1 (ix3 (0 : Fin 1) u k) := by
  unfold k0_pay3
  rw [View.ld_unit_zero (S := S1x104x320) zeros3, truncf_apply]
  refine shapeCast_apply x1 _ _ _ ?_
  rw [Shape.rowMajor_val_two, Shape.rowMajor_val_three]
  show (0 * 104 + u.val) * 320 + k.val = u.val * 320 + k.val
  omega

/-- Chunk `c`'s product at row `p·104 + u`, class v: the chunk's 128 hidden units' terms. The chunk's loads start at
    column (for Wj: row) `o = 128·c`. -/
theorem chunk_apply (x0 : Vec Ideal S1x32x512 .f32) (x1 : Vec Ideal S1x104x320 .f32) (x2 : Vec Ideal S512x640 .f32)
    (x3 : Vec Ideal S1x640 .f32) (x4 : Vec Ideal S320x640 .f32) (x5 : Vec Ideal S1x640 .f32) (x6 : Vec Ideal S640x512 .f32)
    (o : Nat) (i2 : ∀ a, (![0, o] : Fin 2 → Nat) a + S512x128.size a ≤ S512x640.size a)
    (i3 : ∀ a, (![0, o] : Fin 2 → Nat) a + S1x128.size a ≤ S1x640.size a)
    (i4 : ∀ a, (![0, o] : Fin 2 → Nat) a + S320x128.size a ≤ S320x640.size a)
    (i6 : ∀ a, (![o, 0] : Fin 2 → Nat) a + S128x512.size a ≤ S640x512.size a)
    (c : Fin 5) (ho : o = c.val * 128) (p : Fin 32) (u : Fin 104) (v : Fin 512) (r : Fin 3328) (hr : r.val = p.val * 104 + u.val) :
    chunkOf (k0_pay2 (View.ld x0 r0_0)) (k0_pay3 (View.ld x1 r0_1))
        (View.ld x2 (Rect.unit (s := S512x640) ![0, o] S512x128.size i2)) (View.ld x3 (Rect.unit (s := S1x640) ![0, o] S1x128.size i3))
        (View.ld x4 (Rect.unit (s := S320x640) ![0, o] S320x128.size i4)) (View.ld x5 (Rect.unit (s := S1x640) ![0, o] S1x128.size i3))
        (View.ld x6 (Rect.unit (s := S640x512) ![o, 0] S128x512.size i6)) (ix2 r v)
      = ∑ h : Fin 128, tileTerm x0 x1 x2 x3 x4 x5 x6 p u v (unitOf c h) := by
  subst ho
  unfold chunkOf
  rw [jointMat_apply _ _ _ p u v r hr]
  refine Finset.sum_congr rfl fun h _ => ?_
  rw [projA_apply, projT_apply, shapeCast_self, shapeCast_self]
  unfold tileTerm
  refine congrArg₂ (· * ·) (congrArg Ideal.tanh (congrArg₂ (· + ·) (congrArg₂ (· + ·) (Finset.sum_congr rfl fun k _ => ?_) ?_)
    (congrArg₂ (· + ·) (Finset.sum_congr rfl fun k _ => ?_) ?_))) ?_
  · rw [audio_apply, truncf_apply]
    refine congrArg (x0 (ix3 (0 : Fin 1) p k) * ·) (congrArg x2 (funext fun a => Fin.ext ?_))
    match a with
    | ⟨0, _⟩ => show 0 + 1 * k.val = k.val; omega
    | ⟨1, _⟩ => show c.val * 128 + 1 * h.val = c.val * 128 + h.val; omega
  · refine congrArg x3 (funext fun a => Fin.ext ?_)
    match a with
    | ⟨0, _⟩ => show 0 + 1 * 0 = 0; rfl
    | ⟨1, _⟩ => show c.val * 128 + 1 * h.val = c.val * 128 + h.val; omega
  · rw [text_apply, truncf_apply]
    refine congrArg (x1 (ix3 (0 : Fin 1) u k) * ·) (congrArg x4 (funext fun a => Fin.ext ?_))
    match a with
    | ⟨0, _⟩ => show 0 + 1 * k.val = k.val; omega
    | ⟨1, _⟩ => show c.val * 128 + 1 * h.val = c.val * 128 + h.val; omega
  · refine congrArg x5 (funext fun a => Fin.ext ?_)
    match a with
    | ⟨0, _⟩ => show 0 + 1 * 0 = 0; rfl
    | ⟨1, _⟩ => show c.val * 128 + 1 * h.val = c.val * 128 + h.val; omega
  · rw [truncf_apply]
    refine congrArg x6 (funext fun a => Fin.ext ?_)
    match a with
    | ⟨0, _⟩ => show c.val * 128 + 1 * h.val = c.val * 128 + h.val; omega
    | ⟨1, _⟩ => show 0 + 1 * v.val = v.val; omega

/-- THE STORED BLOCK at (frame p, position u < 100, class v): the 640 hidden units' terms summed, plus the class bias. -/
theorem out_apply (x0 : Vec Ideal S1x32x512 .f32) (x1 : Vec Ideal S1x104x320 .f32) (x2 : Vec Ideal S512x640 .f32)
    (x3 : Vec Ideal S1x640 .f32) (x4 : Vec Ideal S320x640 .f32) (x5 : Vec Ideal S1x640 .f32) (x6 : Vec Ideal S640x512 .f32)
    (x7 : Vec Ideal S1x512 .f32) (z : Fin 1) (p : Fin 32) (u : Fin 100) (v : Fin 512) (u' : Fin 104) (hu : u'.val = u.val) :
    out0_8 x0 x1 x2 x3 x4 x5 x6 x7 (ix4 z p u v)
      = (∑ g : Fin 640, tileTerm x0 x1 x2 x3 x4 x5 x6 p u' v g) + x7 (ix2 (0 : Fin 1) v) := by
  have hr : (⟨p.val * 104 + u'.val, by have := p.isLt; have := u'.isLt; omega⟩ : Fin 3328).val = p.val * 104 + u.val := by
    show p.val * 104 + u'.val = _; rw [hu]
  rw [out_eq, epilogue_apply _ _ z p u v _ hr, sum_hidden_chunks, View.ld_unit_zero (S := S1x512) zeros2]
  refine congrArg (· + x7 (ix2 (0 : Fin 1) v)) ?_
  refine congrArg₂ (· + ·) (congrArg₂ (· + ·) (congrArg₂ (· + ·) (congrArg₂ (· + ·) (congrArg₂ (· + ·) ?_ ?_) ?_) ?_) ?_) ?_
  · show Ideal.ofBits .f32 0x00000000#32 = 0
    exact Ideal.ofBits_zero_f32
  · exact chunk_apply x0 x1 x2 x3 x4 x5 x6 0 _ _ _ _ 0 rfl p u' v _ rfl
  · exact chunk_apply x0 x1 x2 x3 x4 x5 x6 128 _ _ _ _ 1 rfl p u' v _ rfl
  · exact chunk_apply x0 x1 x2 x3 x4 x5 x6 256 _ _ _ _ 2 rfl p u' v _ rfl
  · exact chunk_apply x0 x1 x2 x3 x4 x5 x6 384 _ _ _ _ 3 rfl p u' v _ rfl
  · exact chunk_apply x0 x1 x2 x3 x4 x5 x6 512 _ _ _ _ 4 rfl p u' v _ rfl

end Cert.KernelIdeal.Hand

end
-- ==== Proof.Blocks.lean ====
/-
  From blocks to the array: after the run the result array holds the logits of the argument arrays.

  The grid has 4 × 16 points; point t works on batch b = t / 16 and the 32 audio frames 32·s … 32·s + 31, s = t % 16.
  Its input blocks are: those 32 rows of audio batch b; all 104 rows of the zero-padded text batch b (the first 100 are
  the text's own rows, and only those reach the output); the whole of Wa, Wt, Wj; and the three biases recast as one-row
  matrices. What it writes back is the [32, 100, 512] block of the result at (b, 32·s), whose entries are the logits
  there (`block_logits`). The 64 blocks tile the result array, so the array is the logits everywhere.
-/
import proofs.«147776_j48988396978795_2_alg».proof.Proof.Gen.KernelIdeal.Value
import proofs.«147776_j48988396978795_2_alg».proof.Proof.Payload
import Idealize.ShloMosaic.Lib.StableHlo.Run
import Idealize.ShloMosaic.Lib.Tactic
import Idealize.ShloMosaic.Lib.KernelVsHost

open scoped BigOperators

noncomputable section

namespace Cert.KernelIdeal.Hand

open Cert.KernelIdeal Cert.KernelIdeal.Gen Cert.KernelIdeal.Value Idealize.ShloMosaic Idealize.ShloMosaic.TcCoe Idealize.SL.Sem
open Idealize.ShloMosaic.StableHlo Idealize.ShloMosaic.ValueIdx
open Idealize.ShloMosaic.Pipeline (Dat)
open Cert.JointNet (logits)

/-! ## A stored block is the logits at the block's place -/

/-- If the eight blocks a point is given are the argument arrays' entries for batch `b` and frames `32·s + p`, then what the
    body stores at block index `y` is the logits at the array index `i` that `y` sits at. -/
theorem block_logits (A : FVec Ideal S4x512x512 .f32) (X : FVec Ideal S4x100x320 .f32) (Wa : FVec Ideal S512x640 .f32)
    (ba : FVec Ideal S640 .f32) (Wt : FVec Ideal S320x640 .f32) (bt : FVec Ideal S640 .f32) (Wj : FVec Ideal S640x512 .f32)
    (bj : FVec Ideal S512 .f32)
    (x0 : Vec Ideal S1x32x512 .f32) (x1 : Vec Ideal S1x104x320 .f32) (x2 : Vec Ideal S512x640 .f32) (x3 : Vec Ideal S1x640 .f32)
    (x4 : Vec Ideal S320x640 .f32) (x5 : Vec Ideal S1x640 .f32) (x6 : Vec Ideal S640x512 .f32) (x7 : Vec Ideal S1x512 .f32)
    (b : Fin 4) (s : Fin 16)
    (h0 : ∀ (p : Fin 32) (k : Fin 512) (tt : Fin 512), tt.val = s.val * 32 + p.val → x0 (ix3 (0 : Fin 1) p k) = A (ix3 b tt k))
    (h1 : ∀ (u' : Fin 104) (u : Fin 100) (k : Fin 320), u'.val = u.val → x1 (ix3 (0 : Fin 1) u' k) = X (ix3 b u k))
    (h2 : x2 = Wa) (h3 : ∀ g : Fin 640, x3 (ix2 (0 : Fin 1) g) = ba (ix1 g))
    (h4 : x4 = Wt) (h5 : ∀ g : Fin 640, x5 (ix2 (0 : Fin 1) g) = bt (ix1 g))
    (h6 : x6 = Wj) (h7 : ∀ v : Fin 512, x7 (ix2 (0 : Fin 1) v) = bj (ix1 v))
    (y : S1x32x100x512.Idx) (i : S4x512x100x512.Idx)
    (hi0 : (i 0).val = b.val) (hi1 : (i 1).val = s.val * 32 + (y 1).val) (hi2 : (i 2).val = (y 2).val) (hi3 : (i 3).val = (y 3).val) :
    out0_8 x0 x1 x2 x3 x4 x5 x6 x7 y = logits A X Wa ba Wt bt Wj bj i := by
  subst h2 h4 h6
  obtain ⟨z, p, u, v, rfl⟩ : ∃ (z : Fin 1) (p : Fin 32) (u : Fin 100) (v : Fin 512), y = ix4 z p u v :=
    ⟨y 0, y 1, y 2, y 3, eq_ix4 y⟩
  rw [out_apply x0 x1 x2 x3 x4 x5 x6 x7 z p u v ⟨u.val, by have := u.isLt; omega⟩ rfl]
  unfold logits
  have e0 : i 0 = b := Fin.ext hi0
  have e2 : i 2 = u := Fin.ext hi2
  have e3 : i 3 = v := Fin.ext hi3
  rw [e0, e2, e3, h7]
  refine congrArg (· + bj (ix1 v)) (Finset.sum_congr rfl fun g _ => ?_)
  unfold tileTerm Cert.JointNet.hidden
  rw [h3, h5]
  refine congrArg (· * x6 (ix2 g v)) (congrArg Ideal.tanh (congrArg₂ (· + ·)
    (congrArg (· + ba (ix1 g)) (Finset.sum_congr rfl fun k _ => ?_))
    (congrArg (· + bt (ix1 g)) (Finset.sum_congr rfl fun k _ => ?_))))
  · rw [h0 p k (i 1) hi1]
  · rw [h1 ⟨u.val, by have := u.isLt; omega⟩ u k rfl]

/-! ## The region-entry arrays and the points' input blocks -/

variable (m : (ℓ : Loc nD τ sig) → Buf (Elt Ideal) ℓ) (ρ : Dev nD → PrngReg)

/-- The printed index maps over the 64 grid points: the output and the audio move with (t / 16, t % 16), the text with
    t / 16, the weights and biases stay. -/
theorem idx_facts : ∀ t : Fin cfg0.N,
    win0_8.index t (0 : Fin 4) = t.val / 16 ∧ win0_8.index t (1 : Fin 4) = t.val % 16
    ∧ win0_8.index t (2 : Fin 4) = 0 ∧ win0_8.index t (3 : Fin 4) = 0
    ∧ win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem point_lt (t : Fin cfg0.N) : t.val < 64 :=
  Nat.lt_of_lt_of_eq t.isLt N_0

/-- The padded text as the region finds it: the host's pad of the text argument by four rows of the converted zero. -/
theorem V_text (c : Dev nD) : (V m c main_v0 : S4x104x320.Idx → Elt Ideal .f32)
    = pad S4x104x320 ![0, 0, 0] ![0, 4, 0] ![0, 0, 0] (m ((c : Thread nD τ).loc main_arg1))
        (sitofp (F := Ideal) .f32 (constantI S_ 32 0#32)) pads_S4x100x320_S4x104x320_000_040_000 h_S_ := by
  dsimp only [Gen.V]
  simp only [Gen.hostOps0, Gen.hostOps0_1, Gen.hostOps0_2, List.flatten_cons, List.flatten_nil, List.append_nil,
    List.cons_append, List.nil_append]
  after_results
  rfl

/-- The audio bias recast as a one-row matrix. -/
theorem V_biasA (c : Dev nD) : (V m c main_v1 : S1x640.Idx → Elt Ideal .f32)
    = shapeCast S1x640 (m ((c : Thread nD τ).loc main_arg3)) shapeCasts_S640_S1x640 := by
  dsimp only [Gen.V]
  simp only [Gen.hostOps0, Gen.hostOps0_1, Gen.hostOps0_2, List.flatten_cons, List.flatten_nil, List.append_nil,
    List.cons_append, List.nil_append]
  after_results
  rfl

/-- The text bias recast as a one-row matrix. -/
theorem V_biasT (c : Dev nD) : (V m c main_v2 : S1x640.Idx → Elt Ideal .f32)
    = shapeCast S1x640 (m ((c : Thread nD τ).loc main_arg5)) shapeCasts_S640_S1x640 := by
  dsimp only [Gen.V]
  simp only [Gen.hostOps0, Gen.hostOps0_1, Gen.hostOps0_2, List.flatten_cons, List.flatten_nil, List.append_nil,
    List.cons_append, List.nil_append]
  after_results
  rfl

/-- The class bias recast as a one-row matrix. -/
theorem V_biasJ (c : Dev nD) : (V m c main_v3 : S1x512.Idx → Elt Ideal .f32)
    = shapeCast S1x512 (m ((c : Thread nD τ).loc main_arg7)) shapeCasts_S512_S1x512 := by
  dsimp only [Gen.V]
  simp only [Gen.hostOps0, Gen.hostOps0_1, Gen.hostOps0_2, List.flatten_cons, List.flatten_nil, List.append_nil,
    List.cons_append, List.nil_append]
  after_results
  rfl

/-- A 640-vector recast as [1, 640], read at an index whose column is g. -/
theorem row640_apply (w : S640.Idx → Elt Ideal .f32) (j : S1x640.Idx) (g : Fin 640) (hj0 : (j 0).val = 0) (hj1 : (j 1).val = g.val) :
    shapeCast S1x640 w shapeCasts_S640_S1x640 j = w (ix1 g) := by
  refine shapeCast_apply w _ _ _ ?_
  rw [Shape.rowMajor_val_one, Shape.rowMajor_val_two]
  show g.val = (j 0).val * 640 + (j 1).val
  omega

/-- A 512-vector recast as [1, 512], read at an index whose column is v. -/
theorem row512_apply (w : S512.Idx → Elt Ideal .f32) (j : S1x512.Idx) (v : Fin 512) (hj0 : (j 0).val = 0) (hj1 : (j 1).val = v.val) :
    shapeCast S1x512 w shapeCasts_S512_S1x512 j = w (ix1 v) := by
  refine shapeCast_apply w _ _ _ ?_
  rw [Shape.rowMajor_val_one, Shape.rowMajor_val_two]
  show v.val = (j 0).val * 512 + (j 1).val
  omega

/-- Point t's audio block: rows 32·(t % 16) … of batch t / 16. -/
theorem audio_block (c : Dev nD) (t : Fin cfg0.N) (b : Fin 4) (hb : b.val = t.val / 16) (p : Fin 32) (k : Fin 512) (tt : Fin 512)
    (htt : tt.val = t.val % 16 * 32 + p.val) :
    (iblk m c 0 t : Vec Ideal S1x32x512 .f32) (ix3 (0 : Fin 1) p k) = m ((c : Thread nD τ).loc main_arg0) (ix3 b tt k) := by
  obtain ⟨-, -, -, -, e0, e1, e2, -⟩ := idx_facts t
  show V m c main_arg0 (((cfg0.win 0).blk t).view.emb (ix3 (0 : Fin 1) p k)) = _
  rw [V_main_arg0]
  have h : ((cfg0.win 0).blk t).view.emb (ix3 (0 : Fin 1) p k) = ix3 b tt k := by
    funext a; apply Fin.ext
    match a with
    | ⟨0, _⟩ => show win0_0.index t (0 : Fin 3) * 1 + 1 * 0 = b.val; omega
    | ⟨1, _⟩ => show win0_0.index t (1 : Fin 3) * 32 + 1 * p.val = tt.val; omega
    | ⟨2, _⟩ => show win0_0.index t (2 : Fin 3) * 512 + 1 * k.val = k.val; omega
  rw [h]

/-- Point t's text block: at a row below 100, the text's own row of batch t / 16. -/
theorem text_block (c : Dev nD) (t : Fin cfg0.N) (b : Fin 4) (hb : b.val = t.val / 16) (u' : Fin 104) (u : Fin 100) (k : Fin 320)
    (hu : u'.val = u.val) :
    (iblk m c 1 t : Vec Ideal S1x104x320 .f32) (ix3 (0 : Fin 1) u' k) = m ((c : Thread nD τ).loc main_arg1) (ix3 b u k) := by
  obtain ⟨-, -, -, -, -, -, -, e0, e1, e2, -⟩ := idx_facts t
  show V m c main_v0 (((cfg0.win 1).blk t).view.emb (ix3 (0 : Fin 1) u' k)) = _
  rw [V_text]
  refine pad_apply_of_inside _ _ _ _ _ _ _ _ (ix3 b u k) fun a => ?_
  match a with
  | ⟨0, _⟩ => show win0_1.index t (0 : Fin 3) * 1 + 1 * 0 = 0 + b.val * (0 + 1); omega
  | ⟨1, _⟩ => show win0_1.index t (1 : Fin 3) * 104 + 1 * u'.val = 0 + u.val * (0 + 1); omega
  | ⟨2, _⟩ => show win0_1.index t (2 : Fin 3) * 320 + 1 * k.val = 0 + k.val * (0 + 1); omega

/-- Every point is given the whole of Wa. -/
theorem wa_block (c : Dev nD) (t : Fin cfg0.N) : (iblk m c 2 t : Vec Ideal S512x640 .f32) = m ((c : Thread nD τ).loc main_arg2) := by
  obtain ⟨-, -, -, -, -, -, -, -, -, -, e0, e1, -⟩ := idx_facts t
  funext y
  show V m c main_arg2 (((cfg0.win 2).blk t).view.emb y) = _
  rw [V_main_arg2]
  have h : ((cfg0.win 2).blk t).view.emb y = y := by
    funext a; apply Fin.ext
    match a with
    | ⟨0, _⟩ => show win0_2.index t (0 : Fin 2) * 512 + 1 * (y 0).val = (y 0).val; omega
    | ⟨1, _⟩ => show win0_2.index t (1 : Fin 2) * 640 + 1 * (y 1).val = (y 1).val; omega
  rw [h]

/-- Every point is given the whole of Wt. -/
theorem wt_block (c : Dev nD) (t : Fin cfg0.N) : (iblk m c 4 t : Vec Ideal S320x640 .f32) = m ((c : Thread nD τ).loc main_arg4) := by
  obtain ⟨-, -, -, -, -, -, -, -, -, -, -, -, -, -, e0, e1, -⟩ := idx_facts t
  funext y
  show V m c main_arg4 (((cfg0.win 4).blk t).view.emb y) = _
  rw [V_main_arg4]
  have h : ((cfg0.win 4).blk t).view.emb y = y := by
    funext a; apply Fin.ext
    match a with
    | ⟨0, _⟩ => show win0_4.index t (0 : Fin 2) * 320 + 1 * (y 0).val = (y 0).val; omega
    | ⟨1, _⟩ => show win0_4.index t (1 : Fin 2) * 640 + 1 * (y 1).val = (y 1).val; omega
  rw [h]

/-- Every point is given the whole of Wj. -/
theorem wj_block (c : Dev nD) (t : Fin cfg0.N) : (iblk m c 6 t : Vec Ideal S640x512 .f32) = m ((c : Thread nD τ).loc main_arg6) := by
  obtain ⟨-, -, -, -, -, -, -, -, -, -, -, -, -, -, -, -, -, -, e0, e1, -⟩ := idx_facts t
  funext y
  show V m c main_arg6 (((cfg0.win 6).blk t).view.emb y) = _
  rw [V_main_arg6]
  have h : ((cfg0.win 6).blk t).view.emb y = y := by
    funext a; apply Fin.ext
    match a with
    | ⟨0, _⟩ => show win0_6.index t (0 : Fin 2) * 640 + 1 * (y 0).val = (y 0).val; omega
    | ⟨1, _⟩ => show win0_6.index t (1 : Fin 2) * 512 + 1 * (y 1).val = (y 1).val; omega
  rw [h]

/-- Every point is given the audio bias as one row. -/
theorem biasA_block (c : Dev nD) (t : Fin cfg0.N) (g : Fin 640) :
    (iblk m c 3 t : Vec Ideal S1x640 .f32) (ix2 (0 : Fin 1) g) = m ((c : Thread nD τ).loc main_arg3) (ix1 g) := by
  obtain ⟨-, -, -, -, -, -, -, -, -, -, -, -, e0, e1, -⟩ := idx_facts t
  show V m c main_v1 (((cfg0.win 3).blk t).view.emb (ix2 (0 : Fin 1) g)) = _
  rw [V_biasA]
  refine row640_apply _ _ g ?_ ?_
  · show win0_3.index t (0 : Fin 2) * 1 + 1 * 0 = 0; omega
  · show win0_3.index t (1 : Fin 2) * 640 + 1 * g.val = g.val; omega

/-- Every point is given the text bias as one row. -/
theorem biasT_block (c : Dev nD) (t : Fin cfg0.N) (g : Fin 640) :
    (iblk m c 5 t : Vec Ideal S1x640 .f32) (ix2 (0 : Fin 1) g) = m ((c : Thread nD τ).loc main_arg5) (ix1 g) := by
  obtain ⟨-, -, -, -, -, -, -, -, -, -, -, -, -, -, -, -, e0, e1, -⟩ := idx_facts t
  show V m c main_v2 (((cfg0.win 5).blk t).view.emb (ix2 (0 : Fin 1) g)) = _
  rw [V_biasT]
  refine row640_apply _ _ g ?_ ?_
  · show win0_5.index t (0 : Fin 2) * 1 + 1 * 0 = 0; omega
  · show win0_5.index t (1 : Fin 2) * 640 + 1 * g.val = g.val; omega

/-- Every point is given the class bias as one row. -/
theorem biasJ_block (c : Dev nD) (t : Fin cfg0.N) (v : Fin 512) :
    (iblk m c 7 t : Vec Ideal S1x512 .f32) (ix2 (0 : Fin 1) v) = m ((c : Thread nD τ).loc main_arg7) (ix1 v) := by
  obtain ⟨-, -, -, -, -, -, -, -, -, -, -, -, -, -, -, -, -, -, -, -, e0, e1⟩ := idx_facts t
  show V m c main_v3 (((cfg0.win 7).blk t).view.emb (ix2 (0 : Fin 1) v)) = _
  rw [V_biasJ]
  refine row512_apply _ _ v ?_ ?_
  · show win0_7.index t (0 : Fin 2) * 1 + 1 * 0 = 0; omega
  · show win0_7.index t (1 : Fin 2) * 512 + 1 * v.val = v.val; omega

/-! ## The result array -/

/-- The logits of the argument arrays as launched. -/
abbrev result (c : Dev nD) : S4x512x100x512.Idx → Elt Ideal .f32 :=
  logits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- WHAT POINT t WRITES BACK is block t of the logits. -/
theorem flushed_eq (c : Dev nD) (t : Fin cfg0.N) :
    (dats m 0 c).flushed 8 t = ((cfg0.win 8).blk t).view.read (Elt Ideal) (result m c) := by
  have ht := point_lt t
  obtain ⟨f0, f1, f2, f3, -⟩ := idx_facts t
  rw [flushed8]
  funext y
  show out0_8 (iblk m c 0 t) (iblk m c 1 t) (iblk m c 2 t) (iblk m c 3 t) (iblk m c 4 t) (iblk m c 5 t) (iblk m c 6 t) (iblk m c 7 t) y
    = result m c (((cfg0.win 8).blk t).view.emb y)
  have hy0 : (y 0).val < 1 := (y 0).isLt
  exact block_logits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
    (iblk m c 0 t) (iblk m c 1 t) (iblk m c 2 t) (iblk m c 3 t) (iblk m c 4 t) (iblk m c 5 t) (iblk m c 6 t) (iblk m c 7 t)
    ⟨t.val / 16, by omega⟩ ⟨t.val % 16, by omega⟩
    (fun p k tt h => audio_block m c t ⟨t.val / 16, by omega⟩ rfl p k tt h)
    (fun u' u k h => text_block m c t ⟨t.val / 16, by omega⟩ rfl u' u k h)
    (wa_block m c t) (fun g => biasA_block m c t g) (wt_block m c t) (fun g => biasT_block m c t g)
    (wj_block m c t) (fun v => biasJ_block m c t v)
    y (((cfg0.win 8).blk t).view.emb y)
    (by show win0_8.index t (0 : Fin 4) * 1 + 1 * (y 0).val = t.val / 16; omega)
    (by show win0_8.index t (1 : Fin 4) * 32 + 1 * (y 1).val = t.val % 16 * 32 + (y 1).val; omega)
    (by show win0_8.index t (2 : Fin 4) * 100 + 1 * (y 2).val = (y 2).val; omega)
    (by show win0_8.index t (3 : Fin 4) * 512 + 1 * (y 3).val = (y 3).val; omega)

/-- Every index of the result array lies in some point's block: batch `i 0`, frames `32·(i 1 / 32) …`. -/
theorem covered (i : S4x512x100x512.Idx) :
    ∃ t : Fin cfg0.N, (cfg0.win 8).flush t = true ∧ i ∈ ((cfg0.win 8).blk t).view.set := by
  have h0 : (i 0).val < 4 := (i 0).isLt
  have h1 : (i 1).val < 512 := (i 1).isLt
  have h2 : (i 2).val < 100 := (i 2).isLt
  have h3 : (i 3).val < 512 := (i 3).isLt
  have hN : (i 0).val * 16 + (i 1).val / 32 < cfg0.N := by rw [show cfg0.N = 64 from N_0]; omega
  refine ⟨⟨(i 0).val * 16 + (i 1).val / 32, hN⟩, flush0_8 _, ?_⟩
  obtain ⟨f0, f1, f2, f3, -⟩ := idx_facts ⟨(i 0).val * 16 + (i 1).val / 32, hN⟩
  have hv : (⟨(i 0).val * 16 + (i 1).val / 32, hN⟩ : Fin cfg0.N).val = (i 0).val * 16 + (i 1).val / 32 := rfl
  rw [hv] at f0 f1
  show i ∈ ((View.whole main_v4).slice (win0_8.rect ⟨(i 0).val * 16 + (i 1).val / 32, hN⟩)).set
  rw [View.set_slice_whole, Rect.mem_set_unit]
  intro a
  match a with
  | ⟨0, _⟩ =>
    show win0_8.index ⟨(i 0).val * 16 + (i 1).val / 32, hN⟩ (0 : Fin 4) * 1 ≤ (i 0).val
      ∧ (i 0).val < win0_8.index ⟨(i 0).val * 16 + (i 1).val / 32, hN⟩ (0 : Fin 4) * 1 + 1
    omega
  | ⟨1, _⟩ =>
    show win0_8.index ⟨(i 0).val * 16 + (i 1).val / 32, hN⟩ (1 : Fin 4) * 32 ≤ (i 1).val
      ∧ (i 1).val < win0_8.index ⟨(i 0).val * 16 + (i 1).val / 32, hN⟩ (1 : Fin 4) * 32 + 32
    omega
  | ⟨2, _⟩ =>
    show win0_8.index ⟨(i 0).val * 16 + (i 1).val / 32, hN⟩ (2 : Fin 4) * 100 ≤ (i 2).val
      ∧ (i 2).val < win0_8.index ⟨(i 0).val * 16 + (i 1).val / 32, hN⟩ (2 : Fin 4) * 100 + 100
    omega
  | ⟨3, _⟩ =>
    show win0_8.index ⟨(i 0).val * 16 + (i 1).val / 32, hN⟩ (3 : Fin 4) * 512 ≤ (i 3).val
      ∧ (i 3).val < win0_8.index ⟨(i 0).val * 16 + (i 1).val / 32, hN⟩ (3 : Fin 4) * 512 + 512
    omega

/-- THE ARRAY after the run is the logits of the argument arrays. -/
theorem final (c : Dev nD) : (dats m 0 c).arrAt 8 cfg0.N = result m c :=
  (dats m 0 c).arrAt_eq_of_cover 8 (result m c) (fun t _ => flushed_eq m c t) covered

/-- The kernel's run, read: the result array at the logits, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Hand

end
-- ==== Proof.RefLogits.lean ====
/-
  The reference program computes the logits.

  Its eighteen host operations, read one at a time at an index, compose to exactly the specification's formula: two
  dot_generals contracting the last axis of the audio and text arrays against Wa and Wt, the biases broadcast along the
  hidden axis, the two projections broadcast across (frame, position) and added, tanh, a dot_general contracting the
  hidden axis against Wj, and the class bias broadcast along the last axis. Nothing is rearranged: each operand index
  the operations compose is the tuple of coordinates the formula names.
-/
import proofs.«147776_j48988396978795_2_alg».proof.Proof.Gen.ReferenceIdeal.Read
import proofs.«147776_j48988396978795_2_alg».proof.Proof.Spec

open scoped BigOperators

noncomputable section

namespace Cert.ReferenceIdeal.Hand

open Cert.ReferenceIdeal Cert.ReferenceIdeal.Read Idealize.ShloMosaic Idealize.ShloMosaic.ValueIdx

/-- Two multi-indices with the same coordinate on every axis are equal (the axes enumerated). -/
macro "same_coords" : tactic => `(tactic| (funext a; apply Fin.ext; fin_cases a <;> rfl))

/-- The reference's result term, at the exact values, is the logits of its arguments. -/
theorem ref_is_logits (x0 : FVec Ideal S4x512x512 .f32) (x1 : FVec Ideal S4x100x320 .f32) (x2 : FVec Ideal S512x640 .f32)
    (x3 : FVec Ideal S640 .f32) (x4 : FVec Ideal S320x640 .f32) (x5 : FVec Ideal S640 .f32) (x6 : FVec Ideal S640x512 .f32)
    (x7 : FVec Ideal S512 .f32) :
    val_main_v17 (F := Ideal) x0 x1 x2 x3 x4 x5 x6 x7 = Cert.JointNet.logits x0 x1 x2 x3 x4 x5 x6 x7 := by
  funext i
  rw [val_main_v17_apply, val_main_v14_apply, val_main_v16_apply, val_main_v15_apply]
  unfold Cert.JointNet.logits
  refine congrArg₂ (· + ·) (Finset.sum_congr rfl fun h _ => congrArg₂ (· * ·) ?_ (congrArg x6 (by same_coords)))
    (congrArg x7 (by same_coords))
  rw [val_main_v13_apply, val_main_v12_apply, val_main_v10_apply, val_main_v8_apply, val_main_v3_apply, val_main_v0_apply,
    val_main_v2_apply, val_main_v1_apply, val_main_v11_apply, val_main_v9_apply, val_main_v7_apply, val_main_v4_apply,
    val_main_v6_apply, val_main_v5_apply]
  unfold Cert.JointNet.hidden
  refine congrArg Ideal.tanh (congrArg₂ (· + ·)
    (congrArg₂ (· + ·) (Finset.sum_congr rfl fun k _ => congrArg₂ (· * ·) (congrArg x0 (by same_coords)) (congrArg x2 (by same_coords)))
      (congrArg x3 (by same_coords)))
    (congrArg₂ (· + ·) (Finset.sum_congr rfl fun k _ => congrArg₂ (· * ·) (congrArg x1 (by same_coords)) (congrArg x4 (by same_coords)))
      (congrArg x5 (by same_coords))))

end Cert.ReferenceIdeal.Hand

end
-- ==== Proof.lean ====
/- The joint network (audio and text projections, tanh of their broadcast sum, a final linear layer) as a fused
   kernel against its jnp reference, at the exact values.

   Both programs compute, for batch b, audio frame t, text position u and class v,

       logits(b,t,u,v) = Σ_{h<640} tanh( (Σ_k A[b,t,k]·Wa[k,h] + ba[h]) + (Σ_k X[b,u,k]·Wt[k,h] + bt[h]) ) · Wj[h,v] + bj[v]

   (Proof/Spec.lean). The reference does so operation by operation (Proof/RefLogits.lean). The kernel tiles the frames by
   32, pads the 100 text positions to 104 and drops the padding again, narrows its matrix operands (the identity at the
   exact values), and sums the hidden units in five chunks of 128 added onto zero — a regrouping of a finite sum, which
   needs only that addition of extended reals is commutative and associative, so no finiteness of the inputs is used
   (Proof/ChunkOps.lean, Proof/Payload.lean). Each grid point writes one [32, 100, 512] block of the logits and the 64
   blocks tile the result (Proof/Blocks.lean). The idealization rewrote nothing, so the preservation claim is trivial;
   the three frames are the generated ones. -/
import proofs.«147776_j48988396978795_2_alg».proof.Defs
import proofs.«147776_j48988396978795_2_alg».proof.Proof.Gen.Kernel
import proofs.«147776_j48988396978795_2_alg».proof.Proof.Gen.Kernel.Skeleton
import proofs.«147776_j48988396978795_2_alg».proof.Proof.Gen.Kernel.Launch
import proofs.«147776_j48988396978795_2_alg».proof.Proof.Gen.Kernel.Points
import proofs.«147776_j48988396978795_2_alg».proof.Proof.Gen.Kernel.Frame
import proofs.«147776_j48988396978795_2_alg».proof.Proof.Gen.KernelIdeal
import proofs.«147776_j48988396978795_2_alg».proof.Proof.Gen.KernelIdeal.Skeleton
import proofs.«147776_j48988396978795_2_alg».proof.Proof.Gen.KernelIdeal.Launch
import proofs.«147776_j48988396978795_2_alg».proof.Proof.Gen.KernelIdeal.Points
import proofs.«147776_j48988396978795_2_alg».proof.Proof.Gen.KernelIdeal.Frame
import proofs.«147776_j48988396978795_2_alg».proof.Proof.Gen.ReferenceIdeal
import proofs.«147776_j48988396978795_2_alg».proof.Proof.Gen.Pre_finite_inputs
import proofs.«147776_j48988396978795_2_alg».proof.Proof.Gen.KernelIdeal.Value
import proofs.«147776_j48988396978795_2_alg».proof.Proof.Gen.ReferenceIdeal.Run
import proofs.«147776_j48988396978795_2_alg».proof.Proof.Gen.ReferenceIdeal.Read
import proofs.«147776_j48988396978795_2_alg».proof.Proof.Blocks
import proofs.«147776_j48988396978795_2_alg».proof.Proof.RefLogits
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the logits of those arguments in their result
    arrays. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact (Cert.ReferenceIdeal.Read.val_main_v17_eq _ _ _ _ _ _ _ _).trans (Cert.ReferenceIdeal.Hand.ref_is_logits _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
